-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S1x1 : Shape := ⟨2, ![1, 1]⟩
abbrev S32x256 : Shape := ⟨2, ![32, 256]⟩
abbrev S32x256x1 : Shape := ⟨3, ![32, 256, 1]⟩
abbrev S32x1x256 : Shape := ⟨3, ![32, 1, 256]⟩
abbrev S32x256x256 : Shape := ⟨3, ![32, 256, 256]⟩
abbrev S32x1 : Shape := ⟨2, ![32, 1]⟩
abbrev S32x1x1 : Shape := ⟨3, ![32, 1, 1]⟩
abbrev S1x1x1 : Shape := ⟨3, ![1, 1, 1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S1x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S32x256_S32x256_0_0 : ∀ a, (![0, 0] : Fin 2 → Nat) a + S32x256.size a ≤ S32x256.size a
  h_S32x256 : 0 < S32x256.numel
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S32x256 : S32x256x256.Reduces [2] S32x256
  reduces_S32x256x1_S32x1 : S32x256x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S2048x256.size a
  hwx0_1 : ∀ i : grid0.Coords, EltTy.bits .f32 = 32 ∨ (Rect.block (s := S2048x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048x256x1 : Shape := ⟨3, ![2048, 256, 1]⟩
abbrev S2048x1x256 : Shape := ⟨3, ![2048, 1, 256]⟩
abbrev S2048x256x256 : Shape := ⟨3, ![2048, 256, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256x1, .f32⟩
  | .hbm, ⟨3, _⟩ => ⟨S2048x1x256, .f32⟩
  | .hbm, ⟨4, _⟩ => ⟨S2048x256x256, .f32⟩
  | .hbm, ⟨5, _⟩ => ⟨S2048x256x256, .f32⟩
  | .hbm, ⟨6, _⟩ => ⟨S2048x256x256, .f32⟩
  | .hbm, ⟨7, _⟩ => ⟨S2048x256x1, .f32⟩
  | .hbm, ⟨8, _⟩ => ⟨S2048x1x256, .f32⟩
  | .hbm, ⟨9, _⟩ => ⟨S2048x256x256, .f32⟩
  | .hbm, ⟨10, _⟩ => ⟨S2048x256x256, .f32⟩
  | .hbm, ⟨11, _⟩ => ⟨S2048x256x256, .f32⟩
  | .hbm, ⟨12, _⟩ => ⟨S2048x256x256, .f32⟩
  | .hbm, ⟨13, _⟩ => ⟨S2048x256x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S2048x256_S2048x256x1_0_1 : S2048x256.BroadcastsInDim S2048x256x1 (![0, 1] : Fin 2 → Fin S2048x256x1.rank)
  bcast_S2048x256_S2048x1x256_0_2 : S2048x256.BroadcastsInDim S2048x1x256 (![0, 2] : Fin 2 → Fin S2048x1x256.rank)
  bcast_S2048x256x1_S2048x256x256_0_1_2 : S2048x256x1.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  reducesTo_S2048x256x256_S_d0_1_2 : S2048x256x256.ReducesTo [0, 1, 2] S_
  h_S_ : 0 < S_.numel

variable [Facts₀]

class Facts : Prop extends Facts₀ where

variable [Facts]
-- ==== Proof.PointValue.lean ====
/-
  What one grid point leaves in the accumulator's one-entry staging buffer.

  At a later point the body reads the two 32-row tiles of the inputs and the running total, and stores the total plus
  the tile's contribution: one store covering the whole buffer, whose value is the body's arithmetic on the three
  things it read. At the first point the body first stores the zero entry, reads it back as the running total, and
  then stores in the same way: the second store covers the first, so what is left is the same arithmetic with the
  zero entry as the running total.
-/
import proofs.«112880_j24962349924824_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.PointValue

open Cert.KernelIdeal Cert.KernelIdeal.Gen

variable {F : FTy → Type} [FloatOps F]

/-- The offset of a block that starts at the origin. -/
theorem origin2 : (![0, 0] : Fin 2 → Nat) = fun _ => 0 := funext fun a => by fin_cases a <;> rfl

/-- A later point: the buffer held `acc`, and ends holding the body's arithmetic on the two tiles and `acc`. -/
theorem later_point (c : Dev nD) (i : grid0.Coords) (a1 : Memref sig .tc .vmem S32x256 .f32) (h1 : a1.IsWhole)
    (a2 : Memref sig .tc .vmem S32x256 .f32) (h2 : a2.IsWhole) (a3 : Memref sig .tc .vmem S1x1 .f32) (h3 : a3.IsWhole)
    (hc : ¬cond0_0 i) (x0 x1 : Vec F S32x256 .f32) (acc : Vec F S1x1 .f32) :
    out0_B_2 c i a1 h1 a2 h2 a3 h3 hc x0 x1 acc = k0_pay2 x0 x1 acc := by
  unfold out0_B_2
  rw [View.read_writes_eq_canon _ _ _ (cover0_B_2 c i a1 h1 a2 h2 a3 h3 hc x0 x1 acc)]
  unfold kernelRun0_B
  dsimp only
  rw [View.canon_unit_zero origin2]
  simp only [View.readAt_eq_ld, h1.read_unread, h2.read_unread, h3.read_unread,
    View.ld_unit_zero (S := S32x256) origin2, View.ld_unit_zero (S := S1x1) origin2]

/-- The first point: the buffer ends holding the body's arithmetic on the two tiles and the zero entry. -/
theorem first_point (c : Dev nD) (i : grid0.Coords) (a1 : Memref sig .tc .vmem S32x256 .f32) (h1 : a1.IsWhole)
    (a2 : Memref sig .tc .vmem S32x256 .f32) (h2 : a2.IsWhole) (a3 : Memref sig .tc .vmem S1x1 .f32) (h3 : a3.IsWhole)
    (hc : cond0_0 i) (x0 x1 : Vec F S32x256 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) origin2]
  simp only [View.readAt_eq_ld, h1.read_unread, h2.read_unread, View.ld_unit_zero (S := S32x256) origin2,
    View.readCov_unit_zero (S := S1x1) _ origin2]

end Cert.KernelIdeal.PointValue

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Spec.lean ====
/-
  The quantity both programs compute.

  For two arrays `q`, `k` of rows of 256 entries, row `i` contributes, for every pair of positions `(j, l)`, the
  absolute difference `|q i j * q i l - k i j * k i l|` of the two rank-one products; the total is the sum of the
  contributions over rows and pairs. Summed over 2048 rows it is the same as summing, tile by tile, the totals of the
  64 tiles of 32 consecutive rows: a sum over the numbers below 64 * 32 is the double sum over tiles and positions.
-/
import Idealize.ShloMosaic.PureOps.Ideal.Laws
import Idealize.ShloMosaic.Lib.ValueIdx
import proofs.«112880_j24962349924824_1_alg».proof.Proof.LibBlockSum

open scoped BigOperators

noncomputable section

namespace Cert.OuterGap

open Idealize.ShloMosaic Idealize.ShloMosaic.ValueIdx

/-- Row `i`'s contribution at the pair `(j, l)`: the absolute value, as the larger of a number and its negation, of
    the difference of the two products. -/
def gap {R : ℕ} (q k : (⟨2, ![R, 256]⟩ : Shape).Idx → EReal) (i : Fin R) (j l : Fin 256) : EReal :=
  max (q (ix2 i j) * q (ix2 i l) - k (ix2 i j) * k (ix2 i l))
    (-(q (ix2 i j) * q (ix2 i l) - k (ix2 i j) * k (ix2 i l)))

/-- The total over all rows and pairs. -/
def rowsTotal {R : ℕ} (q k : (⟨2, ![R, 256]⟩ : Shape).Idx → EReal) : EReal :=
  ∑ i : Fin R, ∑ j : Fin 256, ∑ l : Fin 256, gap q k i j l

/-- Row `p` of tile `t` is row `32 * t + p` of the whole array. -/
theorem tile_row_lt (t : Fin 64) (p : Fin 32) : 32 * t.val + p.val < 2048 :=
  Cert.BlockSum.blk_lt (A := 64) (B := 32) t p

/-- When tile `t` of each array holds its rows `32 * t … 32 * t + 31`, the tiles' totals add up to the whole total. -/
theorem rowsTotal_tiles (Q K : (⟨2, ![2048, 256]⟩ : Shape).Idx → EReal)
    (q k : Fin 64 → (⟨2, ![32, 256]⟩ : Shape).Idx → EReal)
    (hq : ∀ (t : Fin 64) (p : Fin 32) (j : Fin 256), q t (ix2 p j) = Q (ix2 ⟨32 * t.val + p.val, tile_row_lt t p⟩ j))
    (hk : ∀ (t : Fin 64) (p : Fin 32) (j : Fin 256), k t (ix2 p j) = K (ix2 ⟨32 * t.val + p.val, tile_row_lt t p⟩ j)) :
    ∑ t : Fin 64, rowsTotal (q t) (k t) = rowsTotal Q K := by
  unfold rowsTotal
  rw [Cert.BlockSum.sum_fin_blocks (A := 64) (B := 32) (N := 2048) rfl
    (fun i : Fin 2048 => ∑ j : Fin 256, ∑ l : Fin 256, gap Q K i j l)]
  refine Finset.sum_congr rfl fun t _ => Finset.sum_congr rfl fun p _ => Finset.sum_congr rfl fun j _ =>
    Finset.sum_congr rfl fun l _ => ?_
  unfold gap
  rw [hq t p j, hq t p l, hk t p j, hk t p l]

end Cert.OuterGap

end
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.LibLayoutMid.lean ====
/-
  Three more layout operations on small arrays, read at an index.

  Casting `[A, B]` to `[A, 1, B]` inserts a unit axis in the middle: entry `(a, u, b)` is entry `(a, b)`, both at
  row-major position `a * B + b`. Broadcasting `[A, 1, C]` to `[A, B, C]` copies entry `(a, u, c)` along the middle
  axis. Casting `[1, 1, 1]` to `[1, 1]` keeps the one entry.
-/
import Idealize.ShloMosaic.Lib.Pipeline.Value
import Idealize.ShloMosaic.Lib.ValueIdx

namespace Cert.LayoutMid

open Idealize.ShloMosaic Idealize.ShloMosaic.ValueIdx

variable {α : Type}

/-- `[A, B]` cast to `[A, 1, B]`: at `(a, u, b)`, the operand at `(a, b)`, whatever the unit coordinate `u`. -/
theorem shapeCast_ab_a1b_apply {A B : ℕ} (x : (⟨2, ![A, B]⟩ : Shape).Idx → α)
    (h : (⟨2, ![A, B]⟩ : Shape).ShapeCasts ⟨3, ![A, 1, B]⟩) (a : Fin A) (u : Fin 1) (b : Fin B) :
    shapeCast ⟨3, ![A, 1, B]⟩ x h (ix3 a u b) = x (ix2 a b) :=
  shapeCast_apply x h _ _ (by
    have hu : u.val = 0 := by omega
    rw [Shape.rowMajor_val_two, Shape.rowMajor_val_three]
    show a.val * B + b.val = (a.val * 1 + u.val) * B + b.val
    rw [hu, Nat.mul_one, Nat.add_zero])

/-- `[A, 1, C]` broadcast to `[A, B, C]`: at `(a, b, c)`, the operand at `(a, u, c)`. -/
theorem broadcastTo_a1c_abc_apply {A B C : ℕ} (v : (⟨3, ![A, 1, C]⟩ : Shape).Idx → α)
    (h : (⟨3, ![A, 1, C]⟩ : Shape).Broadcasts ⟨3, ![A, B, C]⟩) (a : Fin A) (b : Fin B) (c : Fin C) (u : Fin 1) :
    broadcastTo ⟨3, ![A, B, C]⟩ v h (ix3 a b c) = v (ix3 a u c) := by
  refine broadcastTo_apply v h (ix3 a b c) (ix3 a u c) fun ax => ?_
  match ax with
  | ⟨0, _⟩ =>
    show a.val = if A = 1 then 0 else a.val
    split
    · have := a.isLt; omega
    · rfl
  | ⟨1, _⟩ =>
    show u.val = if (1 : ℕ) = 1 then 0 else b.val
    rw [if_pos rfl]; omega
  | ⟨2, _⟩ =>
    show c.val = if C = 1 then 0 else c.val
    split
    · have := c.isLt; omega
    · rfl

/-- `[1, 1, 1]` cast to `[1, 1]`: the one entry. -/
theorem shapeCast_111_11_apply (x : (⟨3, ![1, 1, 1]⟩ : Shape).Idx → α)
    (h : (⟨3, ![1, 1, 1]⟩ : Shape).ShapeCasts ⟨2, ![1, 1]⟩) (a b : Fin 1) (a' b' c' : Fin 1) :
    shapeCast ⟨2, ![1, 1]⟩ x h (ix2 a b) = x (ix3 a' b' c') :=
  shapeCast_apply x h _ _ (by
    rw [Shape.rowMajor_val_three, Shape.rowMajor_val_two]
    show (a'.val * 1 + b'.val) * 1 + c'.val = a.val * 1 + b.val
    omega)

end Cert.LayoutMid
-- ==== Proof.TileSum.lean ====
/-
  The body's arithmetic, read at the accumulator's one entry.

  The body forms, for each of the tile's 32 rows, the two 256 x 256 rank-one products of the row with itself (one
  array's row spread along the last axis, times the same row spread along the middle axis), takes the absolute value
  of their difference, and sums: first along the last axis, then along the middle axis, then over the rows; the casts
  between the sums only insert or drop axes of extent one. It adds the result to the running total it read. So the new
  entry is the running total plus the tile's total contribution.
-/
import proofs.«112880_j24962349924824_1_alg».proof.Proof.Gen.KernelIdeal.Skeleton
import proofs.«112880_j24962349924824_1_alg».proof.Proof.Spec
import proofs.«112880_j24962349924824_1_alg».proof.Proof.LibLayout3
import proofs.«112880_j24962349924824_1_alg».proof.Proof.LibLayoutMid
import Idealize.ShloMosaic.PureOps.Ideal.Laws
import Idealize.ShloMosaic.Lib.ValueIdx
import Idealize.ShloMosaic.Lib.Pipeline.Value

open scoped BigOperators

noncomputable section

namespace Cert.KernelIdeal.TileSum

open Idealize.ShloMosaic Idealize.ShloMosaic.ValueIdx Cert.KernelIdeal Cert.KernelIdeal.Gen Cert.OuterGap

/-- Summing a `[32, 256, 256]` array along its last axis: at `(p, j)`, the sum over `l` of the entries `(p, j, l)`. -/
theorem sum_last (v : FVec Ideal S32x256x256 .f32) (h : S32x256x256.Reduces [2] S32x256) (hφ : FKind.Formats .f32)
    (hacc : (0x00000000#32 : BitVec 32) = FKind.add.neutral .f32 hφ) (p : Fin 32) (j : Fin 256) :
    multiReduction .add [2] S32x256 v 0x00000000#32 h hφ hacc (ix2 p j) = ∑ l : Fin 256, v (ix3 p j l) :=
  (Ideal.multiReduction_add_single v _ h hφ hacc (ix2 p j)).trans
    (Finset.sum_congr rfl fun l _ => congrArg v (funext fun a => Fin.ext (by
      match a with
      | ⟨0, _⟩ => rfl
      | ⟨1, _⟩ => rfl
      | ⟨2, _⟩ => rfl)))

/-- Summing a `[32, 256, 1]` array along its middle axis: at `(p, u)`, the sum over `j` of the entries `(p, j, u)`. -/
theorem sum_mid (v : FVec Ideal S32x256x1 .f32) (h : S32x256x1.Reduces [1] S32x1) (hφ : FKind.Formats .f32)
    (hacc : (0x00000000#32 : BitVec 32) = FKind.add.neutral .f32 hφ) (p : Fin 32) (u : Fin 1) :
    multiReduction .add [1] S32x1 v 0x00000000#32 h hφ hacc (ix2 p u) = ∑ j : Fin 256, v (ix3 p j u) :=
  (Ideal.multiReduction_add_single v _ h hφ hacc (ix2 p u)).trans
    (Finset.sum_congr rfl fun j _ => congrArg v (funext fun a => Fin.ext (by
      match a with
      | ⟨0, _⟩ => rfl
      | ⟨1, _⟩ => rfl
      | ⟨2, _⟩ => rfl)))

/-- Summing a `[32, 1, 1]` array along its first axis: at `(u, u')`, the sum over `p` of the entries `(p, u, u')`. -/
theorem sum_first (v : FVec Ideal S32x1x1 .f32) (h : S32x1x1.Reduces [0] S1x1) (hφ : FKind.Formats .f32)
    (hacc : (0x00000000#32 : BitVec 32) = FKind.add.neutral .f32 hφ) (u u' : Fin 1) :
    multiReduction .add [0] S1x1 v 0x00000000#32 h hφ hacc (ix2 u u') = ∑ p : Fin 32, v (ix3 p u u') :=
  (Ideal.multiReduction_add_single v _ h hφ hacc (ix2 u u')).trans
    (Finset.sum_congr rfl fun p _ => congrArg v (funext fun a => Fin.ext (by
      match a with
      | ⟨0, _⟩ => rfl
      | ⟨1, _⟩ => rfl
      | ⟨2, _⟩ => rfl)))

/-- The body's arithmetic on a tile `x0`, `x1` and a running total `acc`, at the one entry: `acc` plus the tile's total. -/
theorem pay_entry (x0 x1 : FVec Ideal S32x256 .f32) (acc : FVec Ideal S1x1 .f32) :
    k0_pay2 (F := Ideal) x0 x1 acc (ix2 0 0) = acc (ix2 0 0) + rowsTotal x0 x1 := by
  unfold k0_pay2
  refine (addf_apply _ _ _).trans ?_
  refine congrArg₂ (fun a b : EReal => a + b) (congrFun (shapeCast_self acc _) _) ?_
  refine (Cert.LayoutMid.shapeCast_111_11_apply _ _ 0 0 0 0 0).trans ?_
  refine (Cert.Layout3.shapeCast_ab_ab1_apply _ _ 0 0 0).trans ?_
  refine (sum_first _ _ _ _ 0 0).trans ?_
  unfold rowsTotal
  refine Finset.sum_congr rfl fun p _ => ?_
  refine (Cert.Layout3.shapeCast_ab_ab1_apply _ _ p 0 0).trans ?_
  refine (sum_mid _ _ _ _ p 0).trans ?_
  refine Finset.sum_congr rfl fun j _ => ?_
  refine (Cert.Layout3.shapeCast_ab_ab1_apply _ _ p j 0).trans ?_
  refine (sum_last _ _ _ _ p j).trans ?_
  refine Finset.sum_congr rfl fun l _ => ?_
  unfold gap
  exact congrArg₂ (fun a b : EReal => max (a - b) (-(a - b)))
    (congrArg₂ (fun a b : EReal => a * b)
      ((Cert.Layout3.broadcastTo_ab1_abc_apply _ _ p j l 0).trans (Cert.Layout3.shapeCast_ab_ab1_apply x0 _ p j 0))
      ((Cert.LayoutMid.broadcastTo_a1c_abc_apply _ _ p j l 0).trans (Cert.LayoutMid.shapeCast_ab_a1b_apply x0 _ p 0 l)))
    (congrArg₂ (fun a b : EReal => a * b)
      ((Cert.Layout3.broadcastTo_ab1_abc_apply _ _ p j l 0).trans (Cert.Layout3.shapeCast_ab_ab1_apply x1 _ p j 0))
      ((Cert.LayoutMid.broadcastTo_a1c_abc_apply _ _ p j l 0).trans (Cert.LayoutMid.shapeCast_ab_a1b_apply x1 _ p 0 l)))

/-- The zero entry the first point stores is the number zero. -/
theorem zero_entry (i : S1x1.Idx) : k0_pay1 (F := Ideal) i = 0 := by
  unfold k0_pay1
  exact Ideal.ofBits_zero_f32

end Cert.KernelIdeal.TileSum

end
-- ==== Proof.Accumulate.lean ====
/-
  What the accumulator holds after each grid point.

  Point `t` is handed tile `t` of each input: rows `32 * t … 32 * t + 31`. The first point leaves the zero entry plus
  tile 0's total; every later point leaves what the point before left plus its own tile's total. So after point `n`
  the entry is the sum of the totals of tiles `0 … n`, and after the last point it is the sum over all 64 tiles, which
  is the total over all 2048 rows.
-/
import proofs.«112880_j24962349924824_1_alg».proof.Proof.PointValue
import proofs.«112880_j24962349924824_1_alg».proof.Proof.TileSum

open scoped BigOperators

noncomputable section

open Idealize.ShloMosaic Idealize.ShloMosaic.TcCoe Idealize.SL.Sem Idealize.ShloMosaic.ValueIdx

namespace Cert.KernelIdeal.Accumulate

open Cert.KernelIdeal Cert.KernelIdeal.Gen Cert.OuterGap Cert.KernelIdeal.PointValue Cert.KernelIdeal.TileSum

variable (m : (ℓ : Loc nD τ sig) → Buf (Elt Ideal) ℓ)

/-- At point `t` both inputs' blocks start at row block `t`, column block 0. -/
theorem block_index : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- Entry `(p, j)` of the first input's block at point `t` is entry `(32 * t + p, j)` of the first argument. -/
theorem tile_of_arg0 (c : Dev nD) (t : Fin cfg0.N) (p : Fin 32) (j : Fin 256) (ht : 32 * t.val + p.val < 2048) :
    (iblk m c 0 t : Vec Ideal S32x256 .f32) (ix2 p j)
      = m ((c : Thread nD τ).loc main_arg0) (ix2 ⟨32 * t.val + p.val, ht⟩ j) := by
  unfold iblk
  rw [View.read_apply]
  show V m c main_arg0 _ = m (c.tc.loc main_arg0) _
  refine congrArg (m ((c : Thread nD τ).loc main_arg0)) (funext fun a => Fin.ext ?_)
  match a with
  | ⟨0, _⟩ =>
    show win0_0.index t 0 * 32 + 1 * p.val = 32 * t.val + p.val
    rw [(block_index t).1.1]; omega
  | ⟨1, _⟩ =>
    show win0_0.index t 1 * 256 + 1 * j.val = j.val
    rw [(block_index t).1.2]; omega

/-- The same for the second input and the second argument. -/
theorem tile_of_arg1 (c : Dev nD) (t : Fin cfg0.N) (p : Fin 32) (j : Fin 256) (ht : 32 * t.val + p.val < 2048) :
    (iblk m c 1 t : Vec Ideal S32x256 .f32) (ix2 p j)
      = m ((c : Thread nD τ).loc main_arg1) (ix2 ⟨32 * t.val + p.val, ht⟩ j) := by
  unfold iblk
  rw [View.read_apply]
  show V m c main_arg1 _ = m (c.tc.loc main_arg1) _
  refine congrArg (m ((c : Thread nD τ).loc main_arg1)) (funext fun a => Fin.ext ?_)
  match a with
  | ⟨0, _⟩ =>
    show win0_1.index t 0 * 32 + 1 * p.val = 32 * t.val + p.val
    rw [(block_index t).2.1]; omega
  | ⟨1, _⟩ =>
    show win0_1.index t 1 * 256 + 1 * j.val = j.val
    rw [(block_index t).2.2]; omega

/-- The total contribution of the tile point `t` is handed. -/
def tileTotal (c : Dev nD) (t : Fin cfg0.N) : EReal :=
  rowsTotal (iblk m c 0 t : Vec Ideal S32x256 .f32) (iblk m c 1 t : Vec Ideal S32x256 .f32)

/-- After point `n` the accumulator's entry is the sum of the totals of tiles `0 … n`. -/
theorem entry_after (c : Dev nD) : ∀ (n : ℕ) (h : n < cfg0.N),
    outsAt0 m c n h (ix2 0 0)
      = ∑ s : Fin (n + 1), tileTotal m c ⟨s.val, Nat.lt_of_lt_of_le s.isLt (Nat.succ_le_of_lt h)⟩
  | 0, h => by
    have e : outsAt0 m c 0 h
        = k0_pay2 (F := Ideal) (iblk m c 0 ⟨0, h⟩) (iblk m c 1 ⟨0, h⟩) (k0_pay1 (F := Ideal)) :=
      (outsAt0_A m c ⟨0, h⟩ rfl).trans (first_point ..)
    rw [e]
    refine (pay_entry (iblk m c 0 ⟨0, h⟩) (iblk m c 1 ⟨0, h⟩) (k0_pay1 (F := Ideal))).trans ?_
    rw [zero_entry, zero_add, Fin.sum_univ_one]
    rfl
  | n + 1, h => by
    have hN : cfg0.N = 64 := N_0
    have hB : ¬(⟨n + 1, h⟩ : Fin cfg0.N).val % 64 = 0 := by dsimp only; omega
    have e : outsAt0 m c (n + 1) h
        = k0_pay2 (F := Ideal) (iblk m c 0 ⟨n + 1, h⟩) (iblk m c 1 ⟨n + 1, h⟩) (outsAt0 m c n (Nat.lt_of_succ_lt h)) :=
      (outsAt0_B m c ⟨n + 1, h⟩ hB).trans (later_point ..)
    rw [e]
    refine (pay_entry (iblk m c 0 ⟨n + 1, h⟩) (iblk m c 1 ⟨n + 1, h⟩) (outsAt0 m c n (Nat.lt_of_succ_lt h))).trans ?_
    rw [Fin.sum_univ_castSucc, entry_after c n (Nat.lt_of_succ_lt h)]
    rfl

/-- After the last point the accumulator's entry is the total over all 2048 rows of the two arguments. -/
theorem entry_last (c : Dev nD) (h : 63 < cfg0.N) :
    outsAt0 m c 63 h (ix2 0 0)
      = rowsTotal (m ((c : Thread nD τ).loc main_arg0) : FVec Ideal S2048x256 .f32)
          (m ((c : Thread nD τ).loc main_arg1) : FVec Ideal S2048x256 .f32) := by
  have hN : cfg0.N = 64 := N_0
  rw [entry_after m c 63 h]
  exact rowsTotal_tiles (m ((c : Thread nD τ).loc main_arg0)) (m ((c : Thread nD τ).loc main_arg1))
    (fun t => (iblk m c 0 ⟨t.val, lt_of_lt_of_eq t.isLt hN.symm⟩ : Vec Ideal S32x256 .f32))
    (fun t => (iblk m c 1 ⟨t.val, lt_of_lt_of_eq t.isLt hN.symm⟩ : Vec Ideal S32x256 .f32))
    (fun t p j => tile_of_arg0 m c ⟨t.val, lt_of_lt_of_eq t.isLt hN.symm⟩ p j (tile_row_lt t p))
    (fun t p j => tile_of_arg1 m c ⟨t.val, lt_of_lt_of_eq t.isLt hN.symm⟩ p j (tile_row_lt t p))

end Cert.KernelIdeal.Accumulate

end
-- ==== Proof.Mean.lean ====
/-
  The result both programs return: the total contribution of all rows and pairs, divided by the number the word
  `0x4D000000` denotes (both programs divide by the same word, so the word is never evaluated).
-/
import proofs.«112880_j24962349924824_1_alg».proof.Proof.Spec

noncomputable section

namespace Cert.OuterGap

open Idealize.ShloMosaic

/-- The mean contribution, as the rank-zero array a program returns. -/
def meanGap (Q K : (⟨2, ![2048, 256]⟩ : Shape).Idx → EReal) : (⟨0, ![]⟩ : Shape).Idx → EReal :=
  fun _ => Ideal.div (rowsTotal Q K) (Ideal.ofBits .f32 0x4D000000#32)

end Cert.OuterGap

end
-- ==== Proof.KernelValue.lean ====
/-
  The kernel's result is the mean contribution.

  The accumulator's one-entry array is written back once, after the last point, and that one block is the whole array:
  it ends holding the total over all 2048 rows. The program then casts the one entry to a rank-zero array and divides
  it by the number its constant word denotes.
-/
import proofs.«112880_j24962349924824_1_alg».proof.Proof.Accumulate
import proofs.«112880_j24962349924824_1_alg».proof.Proof.Mean
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.OuterGap Cert.KernelIdeal.Accumulate

variable (m : (ℓ : Loc nD τ sig) → Buf (Elt Ideal) ℓ) (ρ : Dev nD → PrngReg)

/-- A one-entry array has one index. -/
theorem only_entry (i : S1x1.Idx) : i = ix2 0 0 :=
  funext fun a => Fin.ext (by
    match a with
    | ⟨0, _⟩ => have h : (i 0).val < 1 := (i 0).isLt; show (i 0).val = 0; omega
    | ⟨1, _⟩ => have h : (i 1).val < 1 := (i 1).isLt; show (i 1).val = 0; omega)

/-- The one-entry array holding the total over all rows of the two arguments. -/
def total (c : Dev nD) : Buf (Elt Ideal) ((c : Thread nD τ).loc main_v0) :=
  fun _ => rowsTotal (m ((c : Thread nD τ).loc main_arg0) : FVec Ideal S2048x256 .f32)
    (m ((c : Thread nD τ).loc main_arg1) : FVec Ideal S2048x256 .f32)

/-- After the last point the accumulator's buffer is that array. -/
theorem outs_last (c : Dev nD) (h : 63 < cfg0.N) : outsAt0 m c 63 h = total m c :=
  funext fun i => by
    rw [only_entry i]
    exact entry_last m c h

/-- The accumulator's block sits at the origin at every point. -/
theorem out_index : ∀ t : Fin cfg0.N, win0_2.index t 0 = 0 ∧ win0_2.index t 1 = 0 :=
  (by decide +kernel : ∀ t : Fin grid0.N, win0_2.index t 0 = 0 ∧ win0_2.index t 1 = 0)

/-- The one write-back, after the last point, writes it: the block at the origin of a one-entry array is the array. -/
theorem flushed_eq (c : Dev nD) (t : Fin cfg0.N) (hf : (cfg0.win 2).flush t = true) :
    (dats m 0 c).flushed 2 t = ((cfg0.win 2).blk t).view.read (Elt Ideal) (total m c) := by
  have hN : cfg0.N = 64 := N_0
  obtain ⟨n, hn⟩ := t
  have h63 : n = 63 := by
    have := (flush0_2 ⟨n, hn⟩).mp hf
    dsimp only at this
    omega
  subst h63
  show (cfg0.win 2).cut (grid0.coords ⟨63, hn⟩) ((dats m 0 c).after 2 ⟨63, hn⟩) = _
  rw [after0_2, outs_last m c hn]
  have hz' : (fun a => win0_2.index ⟨63, hn⟩ a * main_v0.ty.shape.size a) = fun _ => 0 :=
    funext fun a => by
      match a with
      | ⟨0, _⟩ =>
        show win0_2.index ⟨63, hn⟩ 0 * _ = 0
        rw [(out_index ⟨63, hn⟩).1, Nat.zero_mul]
      | ⟨1, _⟩ =>
        show win0_2.index ⟨63, hn⟩ 1 * _ = 0
        rw [(out_index ⟨63, hn⟩).2, Nat.zero_mul]
  exact (Memref.read_access_unit_zero (Elt Ideal) main_v0 hz' (fun a => by rw [congrFun hz' a]; simp) (total m c)).symm

/-- The last point, as a grid point. -/
theorem last_lt : 63 < cfg0.N := by rw [show cfg0.N = 64 from N_0]; decide

/-- So the accumulator's array ends holding the total: the last point's block covers it. -/
theorem final_total (c : Dev nD) : (dats m 0 c).arrAt 2 cfg0.N = total m c :=
  (dats m 0 c).arrAt_eq_of_cover 2 (total m c) (flushed_eq m c) fun i =>
    ⟨⟨63, last_lt⟩, (flush0_2 ⟨63, last_lt⟩).mpr rfl, by
      show i ∈ ((View.whole main_v0).slice (win0_2.rect ⟨63, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨63, last_lt⟩ 0 * win0_2.size 0 ≤ (i 0 : Nat)
          ∧ (i 0 : Nat) < win0_2.index ⟨63, last_lt⟩ 0 * win0_2.size 0 + win0_2.xsize (grid0.coords ⟨63, last_lt⟩) 0
        rw [show win0_2.index ⟨63, last_lt⟩ 0 * win0_2.size 0 = 0 from by decide +kernel,
          show win0_2.xsize (grid0.coords ⟨63, last_lt⟩) 0 = 1 from by decide +kernel]
        omega
      | ⟨1, _⟩ =>
        show win0_2.index ⟨63, last_lt⟩ 1 * win0_2.size 1 ≤ (i 1 : Nat)
          ∧ (i 1 : Nat) < win0_2.index ⟨63, last_lt⟩ 1 * win0_2.size 1 + win0_2.xsize (grid0.coords ⟨63, last_lt⟩) 1
        rw [show win0_2.index ⟨63, last_lt⟩ 1 * win0_2.size 1 = 0 from by decide +kernel,
          show win0_2.xsize (grid0.coords ⟨63, last_lt⟩) 1 = 1 from by decide +kernel]
        omega⟩

/-- The operations after the region, applied to the accumulator's array: the cast to rank zero, then the division. -/
theorem tail_eq (c : Dev nD) :
    Pipeline.afterTail₀ cfgs (dats m) 0 (V0 m) [hostOps1] c main_v2
      = meanGap (m ((c : Thread nD τ).loc main_arg0)) (m ((c : Thread nD τ).loc main_arg1)) := by
  unfold Pipeline.afterTail₀
  show StableHlo.after hostOps1 _ (Proc.devRef .tc main_v2) = _
  after_results
  rw [(Pipeline.withArrays_arr spec0 launch0.win.arr_inj c _ _ 2).trans (final_total m c)]
  funext i
  show Ideal.div (shapeCast S_ (total m c) shapeCasts_S1x1_S_ i) (Ideal.ofBits .f32 0x4D000000#32) = _
  rw [shapeCast_apply (total m c) shapeCasts_S1x1_S_ i (ix2 0 0) (by
    have h1 : (S_.rowMajor i).val < 1 := (S_.rowMajor i).isLt
    show (S1x1.rowMajor (ix2 0 0)).val = (S_.rowMajor i).val
    rw [Shape.rowMajor_val_two]
    show (0 : ℕ) * 1 + 0 = (S_.rowMajor i).val
    omega)]
  rfl

/-- The kernel's run, read: the result at the mean contribution of the arguments, the arguments unchanged. -/
theorem run : θ_run defs (onTc (τ := τ) (main (F := Ideal))) ⟨m, fun _ => 0, ρ⟩ fun r => ∀ c : Dev nD,
      r.2.mem ((c : Thread nD τ).loc main_v2)
        = meanGap (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelValue

end
-- ==== Proof.LibReduceLeading.lean ====
/-
  Sums over the leading axes of a rank-three array.

  An index of an array of extents `[A, B, C]` is its three coordinates, so a sum over all indices is a triple sum.
  Reducing such an array over its two leading axes keeps the last axis: an index reduces to `j` exactly when its last
  coordinate is `j`'s only coordinate, so the sum of the entries that reduce to `j` is the double sum, over the two
  leading coordinates, of the entries whose last coordinate is that one.
-/
import Idealize.ShloMosaic.PureOps.Ideal.Laws
import Idealize.ShloMosaic.Lib.ValueIdx

open scoped BigOperators

noncomputable section

namespace Cert.ReduceLeading

open Idealize.ShloMosaic Idealize.ShloMosaic.ValueIdx

variable {M : Type*} [AddCommMonoid M] {A B C : Nat}

/-- A rank-three index is its three coordinates. -/
def idxEquiv3 : (⟨3, ![A, B, C]⟩ : Shape).Idx ≃ Fin A × Fin B × Fin C where
  toFun i := (i 0, i 1, i 2)
  invFun p := ix3 p.1 p.2.1 p.2.2
  left_inv i := (eq_ix3 i).symm
  right_inv _ := rfl

/-- A sum over all indices of a rank-three array is the triple sum over its coordinates. -/
theorem sum_idx3 (f : (⟨3, ![A, B, C]⟩ : Shape).Idx → M) :
    ∑ i, f i = ∑ a : Fin A, ∑ b : Fin B, ∑ c : Fin C, f (ix3 a b c) := by
  rw [← Equiv.sum_comp (idxEquiv3 (A := A) (B := B) (C := C)).symm, Fintype.sum_prod_type]
  refine Finset.sum_congr rfl fun a _ => ?_
  rw [Fintype.sum_prod_type]
  rfl

/-- An index reduces, over the two leading axes, to the index with coordinate `jc` exactly when its last coordinate
    is `jc`. -/
theorem drop_lead2_eq_iff (h : (⟨3, ![A, B, C]⟩ : Shape).Reduces [0, 1] ⟨1, ![C]⟩) (a : Fin A) (b : Fin B) (c jc : Fin C) :
    h.drop (ix3 a b c) = ix1 jc ↔ c = jc := by
  have hlen : (0 : Nat) < ((⟨3, ![A, B, C]⟩ : Shape).kept [0, 1]).length :=
    Nat.lt_of_lt_of_eq Nat.zero_lt_one (by rfl)
  have hv : ((h.drop (ix3 a b c) 0 : Fin C) : Nat) = (c : Nat) :=
    h.drop_apply_val_of_eq (ix3 a b c) 0 2 hlen (by rfl)
  constructor
  · intro e
    apply Fin.ext
    have e0 : (h.drop (ix3 a b c) 0 : Fin C) = jc := congrFun e 0
    rw [← e0]
    exact hv.symm
  · intro e
    funext d
    match d with
    | ⟨0, _⟩ =>
      apply Fin.ext
      exact hv.trans (congrArg Fin.val e)

/-- The sum of the entries that reduce to the index with coordinate `jc` over the two leading axes is the double sum
    over those axes of the entries whose last coordinate is `jc`. -/
theorem sum_filter_drop_lead2 (h : (⟨3, ![A, B, C]⟩ : Shape).Reduces [0, 1] ⟨1, ![C]⟩)
    (x : (⟨3, ![A, B, C]⟩ : Shape).Idx → M) (jc : Fin C) :
    ∑ i ∈ Finset.univ.filter (fun i => h.drop i = ix1 jc), x i = ∑ a : Fin A, ∑ b : Fin B, x (ix3 a b jc) := by
  classical
  rw [Finset.sum_filter, sum_idx3]
  refine Finset.sum_congr rfl fun a _ => Finset.sum_congr rfl fun b _ => ?_
  have hc : ∀ c : Fin C, (h.drop (ix3 a b c) = ix1 jc) ↔ c = jc := fun c => drop_lead2_eq_iff h a b c jc
  simp only [hc]
  rw [Finset.sum_ite_eq' Finset.univ jc fun c => x (ix3 a b c)]
  simp

/-- So the exact reduction by addition over the two leading axes, at the index with coordinate `jc`, is that double
    sum. -/
theorem reduceAdd_lead2 (h : (⟨3, ![A, B, C]⟩ : Shape).Reduces [0, 1] ⟨1, ![C]⟩)
    (x : (⟨3, ![A, B, C]⟩ : Shape).Idx → EReal) (jc : Fin C) :
    Ideal.reduceAdd h x (ix1 jc) = ∑ a : Fin A, ∑ b : Fin B, x (ix3 a b jc) :=
  sum_filter_drop_lead2 h x jc

end Cert.ReduceLeading

end
-- ==== Proof.RefValue.lean ====
/-
  The reference's result is the mean contribution.

  The reference spreads each argument's rows along a new last axis and along a new middle axis, multiplies the two
  spreads (entry `(i, j, l)` of the product is `x i j * x i l`), subtracts the second argument's product from the
  first's, takes absolute values, sums every entry from zero, and divides. Entry `(i, j, l)` of the array it sums is
  row `i`'s contribution at the pair `(j, l)`, and a sum over all entries of a rank-three array is the triple sum over
  its coordinates.
-/
import proofs.«112880_j24962349924824_1_alg».proof.Proof.Gen.ReferenceIdeal.Read
import proofs.«112880_j24962349924824_1_alg».proof.Proof.Mean
import proofs.«112880_j24962349924824_1_alg».proof.Proof.LibReduceLeading

open scoped BigOperators

noncomputable section

namespace Cert.ReferenceIdeal.RefValue

open Idealize.ShloMosaic Idealize.ShloMosaic.ValueIdx Cert.ReferenceIdeal Cert.ReferenceIdeal.Gen Cert.ReferenceIdeal.Read
open Cert.OuterGap

/-- Spreading along a new last axis and then along the last axis reads entry `(i, j, l)` at `(i, j)`. -/
theorem along_last (i : Fin 2048) (j l : Fin 256) : idx_main_v0 (idx_main_v2 (ix3 i j l)) = ix2 i j :=
  funext fun d => Fin.ext (by
    match d with
    | ⟨0, _⟩ => rfl
    | ⟨1, _⟩ => rfl)

/-- Spreading along a new middle axis and then along the middle axis reads entry `(i, j, l)` at `(i, l)`. -/
theorem along_mid (i : Fin 2048) (j l : Fin 256) : idx_main_v1 (idx_main_v3 (ix3 i j l)) = ix2 i l :=
  funext fun d => Fin.ext (by
    match d with
    | ⟨0, _⟩ => rfl
    | ⟨1, _⟩ => rfl)

/-- Entry `(i, j, l)` of the array the reference sums is row `i`'s contribution at the pair `(j, l)`. -/
theorem summand (x0 x1 : FVec Ideal S2048x256 .f32) (i : Fin 2048) (j l : Fin 256) :
    val_main_v11 (F := Ideal) x0 x1 (ix3 i j l) = gap x0 x1 i j l := by
  rw [val_main_v11_apply, val_main_v10_apply, val_main_v4_apply, val_main_v9_apply, val_main_v2_apply,
    val_main_v3_apply, val_main_v7_apply, val_main_v8_apply, val_main_v0_apply, val_main_v1_apply, val_main_v5_apply,
    val_main_v6_apply]
  show FloatOps.hostAbsf (FloatOps.subf
      (FloatOps.mulf (x0 (idx_main_v0 (idx_main_v2 (ix3 i j l)))) (x0 (idx_main_v1 (idx_main_v3 (ix3 i j l)))))
      (FloatOps.mulf (x1 (idx_main_v0 (idx_main_v2 (ix3 i j l)))) (x1 (idx_main_v1 (idx_main_v3 (ix3 i j l)))))) = _
  rw [along_last, along_mid]
  rfl

/-- The reference's result is the mean contribution of its two arguments. -/
theorem result_eq (x0 x1 : FVec Ideal S2048x256 .f32) : val_main_v13 (F := Ideal) x0 x1 = meanGap x0 x1 := by
  funext i
  rw [val_main_v13_apply, val_main_v12_apply, Cert.ReduceLeading.sum_idx3, val_main_cst_apply, val_main_cst_0_apply]
  simp only [summand]
  rw [Ideal.ofBits_def, Ideal.ofBits_def, Ideal.ofBits_zero_f32, zero_add, Ideal.hostDivf_def]
  rfl

end Cert.ReferenceIdeal.RefValue

end
-- ==== Proof.lean ====
/-
  The mean absolute difference of per-row rank-one products, by a tiled kernel and by the plain formula.

  For arguments `q`, `k` of 2048 rows of 256 entries both programs return
      ( ∑ over rows i and pairs (j, l) of |q i j * q i l - k i j * k i l| ) / 2^27,
  the divisor being the same constant word in both. The kernel walks the rows in 64 tiles of 32: a one-entry
  accumulator is set to zero at the first tile, each tile adds the sum of its rows' contributions (summed along the
  last axis, then the middle axis, then over the tile's rows), and after the last tile the entry is written back, cast
  to a rank-zero array and divided. The reference builds the whole 2048 x 256 x 256 array of contributions, sums every
  entry from zero and divides. On the extended reals addition is commutative and associative without exception, so
  regrouping the one big sum tile by tile changes nothing: the two results are equal for all arguments, finite or not,
  and the precondition is not used.

  Modules: `Spec` and `Mean` (the quantity, and the tiling law), `PointValue` (what one grid point leaves in the
  accumulator), `TileSum` (the body's arithmetic at the accumulator's entry), `Accumulate` (the entry after each
  point, by induction on the point), `KernelValue` (the write-back, the operations after the region, the kernel's
  run), `RefValue` (the reference's result). Read on the extended reals the kernel's text is unchanged, so `preserves` is `True`.
-/
import proofs.«112880_j24962349924824_1_alg».proof.Defs
import proofs.«112880_j24962349924824_1_alg».proof.Proof.Gen.Kernel
import proofs.«112880_j24962349924824_1_alg».proof.Proof.Gen.Kernel.Skeleton
import proofs.«112880_j24962349924824_1_alg».proof.Proof.Gen.Kernel.Launch
import proofs.«112880_j24962349924824_1_alg».proof.Proof.Gen.Kernel.Points
import proofs.«112880_j24962349924824_1_alg».proof.Proof.Gen.Kernel.Frame
import proofs.«112880_j24962349924824_1_alg».proof.Proof.Gen.KernelIdeal
import proofs.«112880_j24962349924824_1_alg».proof.Proof.Gen.KernelIdeal.Skeleton
import proofs.«112880_j24962349924824_1_alg».proof.Proof.Gen.KernelIdeal.Launch
import proofs.«112880_j24962349924824_1_alg».proof.Proof.Gen.KernelIdeal.Points
import proofs.«112880_j24962349924824_1_alg».proof.Proof.Gen.KernelIdeal.Frame
import proofs.«112880_j24962349924824_1_alg».proof.Proof.Gen.ReferenceIdeal
import proofs.«112880_j24962349924824_1_alg».proof.Proof.Gen.ReferenceIdeal.Run
import proofs.«112880_j24962349924824_1_alg».proof.Proof.Gen.ReferenceIdeal.Read
import proofs.«112880_j24962349924824_1_alg».proof.Proof.Gen.Pre_finite_inputs
import proofs.«112880_j24962349924824_1_alg».proof.Proof.KernelValue
import proofs.«112880_j24962349924824_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped: it terminates and leaves its arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments both programs end with the mean contribution of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
